-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S64x128 : Shape := ⟨2, ![64, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg5 : FVec F S64x128 .f32) (main_arg6 : FVec F S64x128 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  main_v28

def fn {F : FTy → Type} [FloatOps F] (main_arg0 : FVec F S1000000x128 .f32) (main_arg1 : FVec F S1000000x128 .f32) (main_arg2 : FVec F S1000000x128 .f32) (main_arg3 : IVec S1000000 32) (main_arg4 : FVec F S1000000 .f32) (main_arg5 : FVec F S64x128 .f32) (main_arg6 : FVec F S64x128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S1000000x128 .f32 := Host.absf main_arg2
  let main_cst_2 : FVec F S_ .f32 := constant S_ .f32 0x7F800000#32
  let main_v10 : FVec F S1000000x128 .f32 := broadcastInDim S1000000x128 ![] bcast_S_S1000000x128 main_cst_2
  let main_v11 : IVec S1000000x128 1 := cmpf .olt main_v9 main_v10
  let main_c_3 : IVec S_ 1 := constantI S_ 1 1#1
  let main_v12 : IVec S_ 1 := (fun x v => Host.reduce IntOp.andi x v reducesTo_S1000000x128_S_d0_1 h_S_) main_v11 main_c_3
  let main_v13 : IVec S_ 1 := andi main_v8 main_v12
  let main_v14 : FVec F S1000000 .f32 := Host.absf main_arg4
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg5 main_arg6 main_v13 main_v16
-- ==== Kernel.lean ====
abbrev S1000000x128 : Shape := ⟨2, ![1000000, 128]⟩
abbrev S1000000 : Shape := ⟨1, ![1000000]⟩
abbrev S64x128 : Shape := ⟨2, ![64, 128]⟩
abbrev S128x64 : Shape := ⟨2, ![128, 64]⟩
abbrev S1000000x1 : Shape := ⟨2, ![1000000, 1]⟩
abbrev S5000x128 : Shape := ⟨2, ![5000, 128]⟩
abbrev S5000x1 : Shape := ⟨2, ![5000, 1]⟩
abbrev S5000x64 : Shape := ⟨2, ![5000, 64]⟩
abbrev S5000 : Shape := ⟨1, ![5000]⟩
abbrev S_ : Shape := ⟨0, ![]⟩
abbrev S50000x128 : Shape := ⟨2, ![50000, 128]⟩

abbrev nBuf : Space → Nat
  | .hbm => 15
  | .vmem => 12
  | .smem => 0
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S1000000x128, .f32⟩
  | .hbm, ⟨3, _⟩ => ⟨S1000000, .i32⟩
  | .hbm, ⟨4, _⟩ => ⟨S1000000, .f32⟩
  | .hbm, ⟨5, _⟩ => ⟨S64x128, .f32⟩
  | .hbm, ⟨6, _⟩ => ⟨S64x128, .f32⟩
  | .hbm, ⟨7, _⟩ => ⟨S128x64, .f32⟩
  | .hbm, ⟨8, _⟩ => ⟨S128x64, .f32⟩
  | .hbm, ⟨9, _⟩ => ⟨S1000000x1, .f32⟩
  | .hbm, ⟨10, _⟩ => ⟨S1000000x128, .f32⟩
  | .hbm, ⟨11, _⟩ => ⟨S_, .f32⟩
  | .hbm, ⟨12, _⟩ => ⟨S50000x128, .f32⟩
  | .hbm, ⟨13, _⟩ => ⟨S1000000x1, .i32⟩
  | .hbm, ⟨14, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x1, .f32⟩
  | .local _ .vmem, ⟨7, _⟩ => ⟨S5000x1, .f32⟩
  | .local _ .vmem, ⟨8, _⟩ => ⟨S128x64, .f32⟩
  | .local _ .vmem, ⟨9, _⟩ => ⟨S128x64, .f32⟩
  | .local _ .vmem, ⟨10, _⟩ => ⟨S5000x128, .f32⟩
  | .local _ .vmem, ⟨11, _⟩ => ⟨S5000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x128_S128x64_1_0 : S64x128.Transposes [1, 0] S128x64
  shapeCasts_S1000000_S1000000x1 : S1000000.ShapeCasts S1000000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  reduces_S5000x64_S5000 : S5000x64.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  bcast_S1000000_S1000000x1_0 : S1000000.BroadcastsInDim S1000000x1 (![0] : Fin 1 → Fin S1000000x1.rank)
  dot_S5000x128_S128x64_S5000x64_1_0_0_1_n_n_wf : DotDims.WF S5000x128 S128x64 S5000x64 [1] [0] [0] [1] [] []
  scatter_S50000x128_S1000000x1_S1000000x128_1_0_0_1_wf : ScatterDims.WF S50000x128 S1000000x1 S1000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S1000000x128.size a
  hwx0_1 : ∀ i : grid0.Coords, EltTy.bits .f32 = 32 ∨ (Rect.block (s := S1000000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S1000000x128.size a
  hwx0_2 : ∀ i : grid0.Coords, EltTy.bits .f32 = 32 ∨ (Rect.block (s := S1000000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S1000000x1.size a
  hwx0_3 : ∀ i : grid0.Coords, EltTy.bits .f32 = 32 ∨ (Rect.block (s := S1000000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S1000000x128.size a
  hwx0_6 : ∀ i : grid0.Coords, EltTy.bits .f32 = 32 ∨ (Rect.block (s := S1000000x128) S5000x128.size (cc0_transform_6 i) (hinb0_6 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S64x128 : Shape := ⟨2, ![64, 128]⟩
abbrev S128x64 : Shape := ⟨2, ![128, 64]⟩
abbrev S1000000x64 : Shape := ⟨2, ![1000000, 64]⟩
abbrev S_ : Shape := ⟨0, ![]⟩
abbrev S1000000x1 : Shape := ⟨2, ![1000000, 1]⟩
abbrev S50000x128 : Shape := ⟨2, ![50000, 128]⟩

abbrev nBuf : Space → Nat
  | .hbm => 30
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S1000000x128, .f32⟩
  | .hbm, ⟨3, _⟩ => ⟨S1000000, .i32⟩
  | .hbm, ⟨4, _⟩ => ⟨S1000000, .f32⟩
  | .hbm, ⟨5, _⟩ => ⟨S64x128, .f32⟩
  | .hbm, ⟨6, _⟩ => ⟨S64x128, .f32⟩
  | .hbm, ⟨7, _⟩ => ⟨S128x64, .f32⟩
  | .hbm, ⟨8, _⟩ => ⟨S1000000x64, .f32⟩
  | .hbm, ⟨9, _⟩ => ⟨S128x64, .f32⟩
  | .hbm, ⟨10, _⟩ => ⟨S1000000x64, .f32⟩
  | .hbm, ⟨11, _⟩ => ⟨S1000000x64, .f32⟩
  | .hbm, ⟨12, _⟩ => ⟨S_, .f32⟩
  | .hbm, ⟨13, _⟩ => ⟨S1000000, .f32⟩
  | .hbm, ⟨14, _⟩ => ⟨S1000000, .f32⟩
  | .hbm, ⟨15, _⟩ => ⟨S1000000, .f32⟩
  | .hbm, ⟨16, _⟩ => ⟨S_, .f32⟩
  | .hbm, ⟨17, _⟩ => ⟨S1000000, .f32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .f32⟩
  | .hbm, ⟨22, _⟩ => ⟨S1000000, .f32⟩
  | .hbm, ⟨23, _⟩ => ⟨S1000000x1, .f32⟩
  | .hbm, ⟨24, _⟩ => ⟨S1000000x128, .f32⟩
  | .hbm, ⟨25, _⟩ => ⟨S1000000x128, .f32⟩
  | .hbm, ⟨26, _⟩ => ⟨S_, .f32⟩
  | .hbm, ⟨27, _⟩ => ⟨S50000x128, .f32⟩
  | .hbm, ⟨28, _⟩ => ⟨S1000000x1, .i32⟩
  | .hbm, ⟨29, _⟩ => ⟨S50000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  transposes_S64x128_S128x64_1_0 : S64x128.Transposes [1, 0] S128x64
  reducesTo_S1000000x64_S1000000_d1 : S1000000x64.ReducesTo [1] S1000000
  h_S_ : 0 < S_.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S50000x128 : S_.BroadcastsInDim S50000x128 (![] : Fin 0 → Fin S50000x128.rank)
  dot_S1000000x128_S128x64_S1000000x64_1_0_0_1_n_n_wf : DotDims.WF S1000000x128 S128x64 S1000000x64 [1] [0] [0] [1] [] []
  scatter_S50000x128_S1000000x1_S1000000x128_1_0_0_1_wf : ScatterDims.WF S50000x128 S1000000x1 S1000000x128 [1] [0] [0] 1

variable [Facts₀]

def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf

class Facts : Prop extends Facts₀ where

variable [Facts]
-- ==== Proof.GateSpec.lean ====
/-
  The gated array, as one function of the argument arrays.

  For row n the score is  s(n) = Σ_h (Σ_k q(n,k) · Wqk(h,k)) · (Σ_k key(n,k) · Wk(h,k)):  the inner product of the
  two projected rows.  The gate of row n is  sigmoid(s(n)) · prior(n),  and entry (n, d) of the gated array is
  value(n,d) · gate(n).  Both programs then scatter-add the rows of this array into their groups; that last step is
  the same operation applied on both sides, so the whole comparison is about this array.

  The sigmoid is the extended reals' own  1 / (1 + e^(-x)).  Nothing here needs the entries to be finite: the two
  programs compute the same sums and products in the same arrangement, so no sum is regrouped and no factor is moved.
-/
import Idealize.ShloMosaic.PureOps.Ideal.Laws
import Idealize.ShloMosaic.Lib.ValueIdx

noncomputable section

open scoped BigOperators

namespace Cert.Gate

open Idealize.ShloMosaic Idealize.ShloMosaic.ValueIdx

/-- The shape of query, key, value and of the gated array. -/
abbrev Rows : Shape := ⟨2, ![1000000, 128]⟩
/-- The shape of the two weight matrices, stored output-feature major. -/
abbrev Wts : Shape := ⟨2, ![64, 128]⟩
/-- The shape of the per-row prior. -/
abbrev Col : Shape := ⟨1, ![1000000]⟩

/-- Row n's score: the inner product over the 64 features of the two projected rows. -/
def score (q key : Rows.Idx → EReal) (wq wk : Wts.Idx → EReal) (n : Fin 1000000) : EReal :=
  ∑ h : Fin 64, (∑ k : Fin 128, q (ix2 n k) * wq (ix2 h k)) * (∑ k : Fin 128, key (ix2 n k) * wk (ix2 h k))

/-- Row n's gate: the sigmoid of its score times its prior. -/
def gate (q key : Rows.Idx → EReal) (p : Col.Idx → EReal) (wq wk : Wts.Idx → EReal) (n : Fin 1000000) : EReal :=
  Ideal.logistic (score q key wq wk n) * p (ix1 n)

/-- The gated array: every entry of row n of value times row n's gate. -/
def gated (q key v : Rows.Idx → EReal) (p : Col.Idx → EReal) (wq wk : Wts.Idx → EReal) : Rows.Idx → EReal :=
  fun i => v i * gate q key p wq wk (i 0)

theorem gated_apply (q key v : Rows.Idx → EReal) (p : Col.Idx → EReal) (wq wk : Wts.Idx → EReal)
    (n : Fin 1000000) (d : Fin 128) :
    gated q key v p wq wk (ix2 n d) = v (ix2 n d) * gate q key p wq wk n := rfl

/-- The single-precision word of 1.0 denotes the number one. -/
theorem one_f32 : Ideal.ofBits .f32 0x3F800000#32 = 1 := by
  simp [Ideal.ofBits, Ideal.ieee, -EReal.coe_mul]; norm_num

/-- The sigmoid spelt out with the host's operations and the literal 1.0, as a host program expands it. -/
theorem logistic_expanded (x : EReal) :
    Ideal.div (Ideal.ofBits .f32 0x3F800000#32) (Ideal.ofBits .f32 0x3F800000#32 + Ideal.exp (-x)) = Ideal.logistic x := by
  rw [one_f32]; rfl

end Cert.Gate

end
-- ==== Proof.GateReference.lean ====
/-
  The reference's gated array is the specification's.

  The reference multiplies value, entry by entry, by the gate broadcast along each row; the gate of row n is
  (1 / (1 + exp(-(0 + Σ_h xq(n,h) · xk(n,h))))) · prior(n)  with xq = query · Wqkᵀ and xk = key · Wkᵀ, each a plain sum
  over the 128 input features.  Reading every stage at an index: the transposed weight at (k, h) is the stored weight
  at (h, k); the literal 0 the row sum starts from adds nothing; and the quotient spelt with the literal 1.0 is the
  sigmoid.  What is left is the specification, term for term.
-/
import proofs.«150433_j76613626626623_1_alg».proof.Proof.Gen.ReferenceIdeal.Read
import proofs.«150433_j76613626626623_1_alg».proof.Proof.GateSpec

noncomputable section

open scoped BigOperators

namespace Cert.ReferenceIdeal.GateRef

open Idealize.ShloMosaic Idealize.ShloMosaic.ValueIdx Cert.ReferenceIdeal Cert.ReferenceIdeal.Read

/-! The generated index maps, at indices given by their coordinates. -/

theorem at_row (n : Fin 1000000) (d : Fin 128) : idx_main_v14 (ix2 n d) = ix2 n (0 : Fin 1) :=
  funext fun a => Fin.ext (by match a with | ⟨0, _⟩ => rfl | ⟨1, _⟩ => rfl)
theorem at_col (n : Fin 1000000) (u : Fin 1) : idx_main_v13 (ix2 n u) = ix1 n :=
  funext fun a => Fin.ext (by match a with | ⟨0, _⟩ => rfl)
theorem at_feature (n : Fin 1000000) (h : Fin 64) : idx_main_v5 (ix1 n) h = ix2 n h :=
  funext fun a => Fin.ext (by match a with | ⟨0, _⟩ => rfl | ⟨1, _⟩ => rfl)
theorem lhs_q (n : Fin 1000000) (h : Fin 64) (k : Fin 128) : lidx_main_v1 (ix2 n h) k = ix2 n k :=
  funext fun a => Fin.ext (by match a with | ⟨0, _⟩ => rfl | ⟨1, _⟩ => rfl)
theorem rhs_q (n : Fin 1000000) (h : Fin 64) (k : Fin 128) : ridx_main_v1 (ix2 n h) k = ix2 k h :=
  funext fun a => Fin.ext (by match a with | ⟨0, _⟩ => rfl | ⟨1, _⟩ => rfl)
theorem lhs_k (n : Fin 1000000) (h : Fin 64) (k : Fin 128) : lidx_main_v3 (ix2 n h) k = ix2 n k :=
  funext fun a => Fin.ext (by match a with | ⟨0, _⟩ => rfl | ⟨1, _⟩ => rfl)
theorem rhs_k (n : Fin 1000000) (h : Fin 64) (k : Fin 128) : ridx_main_v3 (ix2 n h) k = ix2 k h :=
  funext fun a => Fin.ext (by match a with | ⟨0, _⟩ => rfl | ⟨1, _⟩ => rfl)
theorem transposed_q (k : Fin 128) (h : Fin 64) : idx_main_v0 (ix2 k h) = ix2 h k :=
  funext fun a => Fin.ext (by match a with | ⟨0, _⟩ => rfl | ⟨1, _⟩ => rfl)
theorem transposed_k (k : Fin 128) (h : Fin 64) : idx_main_v2 (ix2 k h) = ix2 h k :=
  funext fun a => Fin.ext (by match a with | ⟨0, _⟩ => rfl | ⟨1, _⟩ => rfl)

/-- The array the reference scatters is the gated array of its arguments. -/
theorem gated_eq (x0 x1 x2 : (⟨S1000000x128, .f32⟩ : BufTy).Contents (Elt Ideal)) (x4 : (⟨S1000000, .f32⟩ : BufTy).Contents (Elt Ideal))
    (x5 x6 : (⟨S64x128, .f32⟩ : BufTy).Contents (Elt Ideal)) :
    val_main_v15 (F := Ideal) x0 x1 x2 x4 x5 x6 = Gate.gated x0 x1 x2 x4 x5 x6 := by
  funext i
  obtain ⟨n, d, rfl⟩ : ∃ (n : Fin 1000000) (d : Fin 128), i = ix2 n d := ⟨i 0, i 1, eq_ix2 i⟩
  rw [val_main_v15_apply, val_main_v14_apply, at_row, val_main_v13_apply, at_col, val_main_v12_apply, val_main_v11_apply,
    val_main_v10_apply, val_main_cst_1_apply, val_main_v9_apply, val_main_v8_apply, val_main_cst_0_apply,
    val_main_v7_apply, val_main_v6_apply, val_main_v5_apply, val_main_cst_apply]
  simp only [at_feature, val_main_v4_apply, val_main_v1_apply, val_main_v3_apply, lhs_q, rhs_q, lhs_k, rhs_k,
    val_main_v0_apply, val_main_v2_apply, transposed_q, transposed_k]
  simp only [Ideal.mulf_def, Ideal.hostDivf_def, Ideal.addf_def, Ideal.hostUnary_exp_def, Ideal.hostNegf_def,
    Ideal.negf_def, Ideal.ofBits_def, Ideal.ofBits_zero_f32, zero_add, Gate.logistic_expanded]
  rfl

end Cert.ReferenceIdeal.GateRef

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.LibCast.lean ====
/-
  Two reshapes read at an index, as functions: an array of shape [a] reshaped to the row shape [1, a] reads,
  at (u, j), its entry j; reshaped to the column shape [a, 1] it reads, at (r, u), its entry r. Stated for any
  proof of the reshape's shape condition, so that either program's own fact can be passed.
-/
import Idealize.ShloMosaic.Lib.ValueLayout

namespace Cert.LibCast

open Idealize.ShloMosaic Idealize.ShloMosaic.ValueIdx

variable {α : Type}

/-- An [a] array reshaped to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a] array reshaped to the row shape [1, a], as a function of the row index. -/
theorem shapeCast_row {a : ℕ} (s : (⟨1, ![a]⟩ : Shape).Idx → α) (h : (⟨1, ![a]⟩ : Shape).ShapeCasts ⟨2, ![1, a]⟩) :
    shapeCast ⟨2, ![1, a]⟩ s h = fun i => s (ix1 (i 1)) := by
  funext i
  exact (congrArg (shapeCast ⟨2, ![1, a]⟩ s h) (eq_ix2 i)).trans (shapeCast_a_1a_apply s h (i 0) (i 1))

/-- An [a] array reshaped to the column shape [a, 1], as a function of the column index. -/
theorem shapeCast_col {a : ℕ} (d : (⟨1, ![a]⟩ : Shape).Idx → α) (h : (⟨1, ![a]⟩ : Shape).ShapeCasts ⟨2, ![a, 1]⟩) :
    shapeCast ⟨2, ![a, 1]⟩ d h = fun i => d (ix1 (i 0)) := by
  funext i
  exact (congrArg (shapeCast ⟨2, ![a, 1]⟩ d h) (eq_ix2 i)).trans (shapeCast_a_a1_apply d h (i 0) (i 1))

end Cert.LibCast
-- ==== Proof.GateBlock.lean ====
/-
  What the kernel body stores, as a function of the blocks it loads.

  One grid step loads a block of 5000 rows of query, key and value, the matching 5000 priors as a column, and the two
  transposed weight matrices whole.  Reading a value in bfloat16 changes nothing at the ideal values, so the two matrix
  products are the plain ones: entry (r, h) of the first is Σ_k q(r,k) · wq(k,h).  Their entrywise product is summed
  along each row, the row sums become a column, the sigmoid and the prior are applied entry by entry, the column is
  repeated across the 128 lanes and multiplies the value block.  So entry (r, d) of the stored block is
      value(r,d) · ( sigmoid( Σ_h (Σ_k q(r,k)·wq(k,h)) · (Σ_k key(r,k)·wk(k,h)) ) · prior(r,0) ).
  The second lemma says this is a row of the gated array whenever the loaded blocks are the rows of the whole arrays
  the step is responsible for, the weight blocks being the transposes of the stored weights.
-/
import proofs.«150433_j76613626626623_1_alg».proof.Proof.Gen.KernelIdeal.Skeleton
import proofs.«150433_j76613626626623_1_alg».proof.Proof.GateSpec
import proofs.«150433_j76613626626623_1_alg».proof.Proof.LibMatmul
import proofs.«150433_j76613626626623_1_alg».proof.Proof.LibRowOps
import proofs.«150433_j76613626626623_1_alg».proof.Proof.LibCast
import Idealize.ShloMosaic.Lib.Pipeline.Value

noncomputable section

open scoped BigOperators

namespace Cert.KernelIdeal.Block

open Idealize.ShloMosaic Idealize.ShloMosaic.ValueIdx Cert.KernelIdeal Cert.KernelIdeal.Gen Cert.LibMatmul

/-- The stored block as a function of the loaded blocks, entry by entry. -/
theorem stored_eq (x0 x2 x21 : Vec Ideal S5000x128 .f32) (x4 x7 : Vec Ideal S128x64 .f32) (x16 : Vec Ideal S5000x1 .f32) :
    k0_pay1 (F := Ideal) x0 x2 x4 x7 x16 x21
      = fun i => x21 i * (Ideal.logistic (∑ h : Fin 64, MM x0 x4 (ix2 (i 0) h) * MM x2 x7 (ix2 (i 0) h))
          * x16 (ix2 (i 0) (0 : Fin 1))) := by
  unfold k0_pay1
  dsimp only [matmul]
  simp only [shapeCast_self]
  rw [matmul_zero_eq dot_S5000x128_S128x64_S5000x64_1_0_0_1_n_n rfl rfl rfl rfl rfl rfl,
    matmul_zero_eq dot_S5000x128_S128x64_S5000x64_1_0_0_1_n_n rfl rfl rfl rfl rfl rfl]
  rw [Cert.LibRowOps.rowsum, Cert.LibCast.shapeCast_col, Cert.LibRowOps.col_bcast]
  rfl

/-- If the loaded blocks hold, in block row r, row n of the whole arrays, the prior column holds row n's prior there,
    and the weight blocks are the stored weights transposed, then the stored entry (r, d) is entry (n, d) of the gated
    array. -/
theorem stored_row (q key v : Gate.Rows.Idx → EReal) (p : Gate.Col.Idx → EReal) (wq wk : Gate.Wts.Idx → EReal)
    (x0 x2 x21 : Vec Ideal S5000x128 .f32) (x4 x7 : Vec Ideal S128x64 .f32) (x16 : Vec Ideal S5000x1 .f32)
    (r : Fin 5000) (d : Fin 128) (n : Fin 1000000)
    (h0 : ∀ k : Fin 128, x0 (ix2 r k) = q (ix2 n k))
    (h2 : ∀ k : Fin 128, x2 (ix2 r k) = key (ix2 n k))
    (h21 : x21 (ix2 r d) = v (ix2 n d))
    (h16 : x16 (ix2 r (0 : Fin 1)) = p (ix1 n))
    (h4 : ∀ (k : Fin 128) (h : Fin 64), x4 (ix2 k h) = wq (ix2 h k))
    (h7 : ∀ (k : Fin 128) (h : Fin 64), x7 (ix2 k h) = wk (ix2 h k)) :
    k0_pay1 (F := Ideal) x0 x2 x4 x7 x16 x21 (ix2 r d) = Gate.gated q key v p wq wk (ix2 n d) := by
  rw [stored_eq]
  show x21 (ix2 r d) * (Ideal.logistic (∑ h : Fin 64, MM x0 x4 (ix2 r h) * MM x2 x7 (ix2 r h))
      * x16 (ix2 r (0 : Fin 1))) = _
  rw [Gate.gated_apply, h21, h16]
  unfold Gate.gate Gate.score
  simp only [MM_apply, h0, h2, h4, h7]

end Cert.KernelIdeal.Block

end
-- ==== Proof.GateArray.lean ====
/-
  From the stored blocks to the whole gated array.

  The grid has 200 steps; step t works on rows 5000·t … 5000·t + 4999.  Its query, key and value blocks are those rows
  of the three arrays (all 128 columns), its prior block those rows of the prior laid out as a column, and the two weight
  blocks are the whole transposed weight matrices, the same at every step.  The region finds the transposes and the
  prior column as the three host operations before it left them: the transpose at (k, h) is the stored weight at (h, k),
  the column at (n, 0) is the prior at n.  So what step t writes back is rows 5000·t … of the gated array of the argument
  arrays, and since the 200 row blocks tile the output, the output array ends holding the gated array.
-/
import proofs.«150433_j76613626626623_1_alg».proof.Proof.Gen.KernelIdeal.Frame
import proofs.«150433_j76613626626623_1_alg».proof.Proof.GateBlock
import Idealize.ShloMosaic.Lib.Pipeline.Value
import Idealize.ShloMosaic.Lib.StableHlo.Run

set_option maxRecDepth 16384

noncomputable section

namespace Cert.KernelIdeal.GateArray

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

variable (m : (ℓ : Loc nD τ sig) → Buf (Elt Ideal) ℓ)

/-! ## The arrays the host operations before the region leave -/

/-- The first weight matrix, transposed. -/
theorem found_wq (c : Dev nD) :
    (V m c main_v0 : S128x64.Idx → EReal) = transpose S128x64 [1, 0] (m ((c : Thread nD τ).loc main_arg5)) transposes_S64x128_S128x64_1_0 := by
  show StableHlo.after hostOps0 (fun b => m (c, b)) (Proc.devRef .tc main_v0) = _
  after_results <;> rfl

/-- The second weight matrix, transposed. -/
theorem found_wk (c : Dev nD) :
    (V m c main_v1 : S128x64.Idx → EReal) = transpose S128x64 [1, 0] (m ((c : Thread nD τ).loc main_arg6)) transposes_S64x128_S128x64_1_0 := by
  show StableHlo.after hostOps0 (fun b => m (c, b)) (Proc.devRef .tc main_v1) = _
  after_results <;> rfl

/-- The prior, as a column. -/
theorem found_prior (c : Dev nD) :
    (V m c main_v2 : S1000000x1.Idx → EReal) = shapeCast S1000000x1 (m ((c : Thread nD τ).loc main_arg4)) shapeCasts_S1000000_S1000000x1 := by
  show StableHlo.after hostOps0 (fun b => m (c, b)) (Proc.devRef .tc main_v2) = _
  after_results <;> rfl

/-! ## Which rows a grid step works on -/

theorem origin : (![0, 0] : Fin 2 → Nat) = fun _ => 0 := funext fun a => by fin_cases a <;> rfl

/-- The printed index maps, decided over the 200 steps: step t's row-blocked windows sit at block row t, block column 0;
    the weight windows stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The gated array of the argument arrays on a core. -/
abbrev G (c : Dev nD) : S1000000x128.Idx → EReal :=
  Gate.gated (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))

/-! ## What a step writes back -/

/-- Step t writes back rows 5000·t … 5000·t + 4999 of the gated array. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero origin]
  simp only [View.ld_unit_zero (S := S5000x128) origin, View.ld_unit_zero (S := S128x64) origin,
    View.ld_unit_zero (S := S5000x1) origin]
  obtain ⟨e00, e01, e10, e11, e20, e21, e30, e31, e40, e41, e50, e51, e60, e61⟩ := index_facts t
  have ht : t.val < 200 := lt_of_lt_of_eq t.isLt N_0
  funext j
  obtain ⟨r, d, rfl⟩ : ∃ (r : Fin 5000) (d : Fin 128), j = ix2 r d := ⟨j 0, j 1, eq_ix2 j⟩
  have hr : r.val < 5000 := r.isLt
  have hd : d.val < 128 := d.isLt
  have hn : 5000 * t.val + r.val < 1000000 := by omega
  refine (Block.stored_row (m ((c : Thread nD τ).loc main_arg0)) (m ((c : Thread nD τ).loc main_arg1))
    (m ((c : Thread nD τ).loc main_arg2)) (m ((c : Thread nD τ).loc main_arg4)) (m ((c : Thread nD τ).loc main_arg5))
    (m ((c : Thread nD τ).loc main_arg6)) (iblk m c 0 t) (iblk m c 1 t) (iblk m c 2 t) (iblk m c 4 t) (iblk m c 5 t)
    (iblk m c 3 t) r d ⟨5000 * t.val + r.val, hn⟩ ?_ ?_ ?_ ?_ ?_ ?_).trans ?_
  · intro k
    have hk : k.val < 128 := k.isLt
    show V m c main_arg0 (((cfg0.win 0).blk t).view.emb (ix2 r k)) = _
    rw [V_main_arg0]
    refine congrArg _ (funext fun a => Fin.ext ?_)
    match a with
    | ⟨0, _⟩ => show win0_0.index t (0 : Fin 2) * 5000 + 1 * r.val = 5000 * t.val + r.val; omega
    | ⟨1, _⟩ => show win0_0.index t (1 : Fin 2) * 128 + 1 * k.val = k.val; omega
  · intro k
    have hk : k.val < 128 := k.isLt
    show V m c main_arg1 (((cfg0.win 1).blk t).view.emb (ix2 r k)) = _
    rw [V_main_arg1]
    refine congrArg _ (funext fun a => Fin.ext ?_)
    match a with
    | ⟨0, _⟩ => show win0_1.index t (0 : Fin 2) * 5000 + 1 * r.val = 5000 * t.val + r.val; omega
    | ⟨1, _⟩ => show win0_1.index t (1 : Fin 2) * 128 + 1 * k.val = k.val; omega
  · show V m c main_arg2 (((cfg0.win 2).blk t).view.emb (ix2 r d)) = _
    rw [V_main_arg2]
    refine congrArg _ (funext fun a => Fin.ext ?_)
    match a with
    | ⟨0, _⟩ => show win0_2.index t (0 : Fin 2) * 5000 + 1 * r.val = 5000 * t.val + r.val; omega
    | ⟨1, _⟩ => show win0_2.index t (1 : Fin 2) * 128 + 1 * d.val = d.val; omega
  · show V m c main_v2 (((cfg0.win 3).blk t).view.emb (ix2 r (0 : Fin 1))) = _
    rw [found_prior]
    refine (congrArg _ (funext fun a => Fin.ext ?_)).trans
      (Cert.LibCast.shapeCast_a_a1_apply (m ((c : Thread nD τ).loc main_arg4)) shapeCasts_S1000000_S1000000x1
        ⟨5000 * t.val + r.val, hn⟩ (0 : Fin 1))
    match a with
    | ⟨0, _⟩ => show win0_3.index t (0 : Fin 2) * 5000 + 1 * r.val = 5000 * t.val + r.val; omega
    | ⟨1, _⟩ => show win0_3.index t (1 : Fin 2) * 1 + 1 * 0 = 0; omega
  · intro k h
    have hk : k.val < 128 := k.isLt
    have hh : h.val < 64 := h.isLt
    show V m c main_v0 (((cfg0.win 4).blk t).view.emb (ix2 k h)) = _
    rw [found_wq]
    refine transpose_apply [1, 0] _ transposes_S64x128_S128x64_1_0 _ (ix2 h k) fun b => ?_
    match b with
    | ⟨0, _⟩ => show k.val = win0_4.index t (0 : Fin 2) * 128 + 1 * k.val; omega
    | ⟨1, _⟩ => show h.val = win0_4.index t (1 : Fin 2) * 64 + 1 * h.val; omega
  · intro k h
    have hk : k.val < 128 := k.isLt
    have hh : h.val < 64 := h.isLt
    show V m c main_v1 (((cfg0.win 5).blk t).view.emb (ix2 k h)) = _
    rw [found_wk]
    refine transpose_apply [1, 0] _ transposes_S64x128_S128x64_1_0 _ (ix2 h k) fun b => ?_
    match b with
    | ⟨0, _⟩ => show k.val = win0_5.index t (0 : Fin 2) * 128 + 1 * k.val; omega
    | ⟨1, _⟩ => show h.val = win0_5.index t (1 : Fin 2) * 64 + 1 * h.val; omega
  · show G m c _ = G m c (((cfg0.win 6).blk t).view.emb (ix2 r d))
    refine congrArg _ (funext fun a => Fin.ext ?_)
    match a with
    | ⟨0, _⟩ => show 5000 * t.val + r.val = win0_6.index t (0 : Fin 2) * 5000 + 1 * r.val; omega
    | ⟨1, _⟩ => show d.val = win0_6.index t (1 : Fin 2) * 128 + 1 * d.val; omega

/-! ## The row blocks tile the output -/

/-- An index of the output array is in step t's block iff each coordinate is in the block's range on its axis. -/
theorem mem_blk (t : Fin cfg0.N) (i : S1000000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v3).slice (win0_6.rect t)).set ↔ _
  rw [View.set_slice_whole, Rect.mem_set_unit]
  exact Iff.rfl

/-- Row n lies in the block of step n / 5000. -/
theorem cover (i : S1000000x128.Idx) :
    ∃ t : Fin cfg0.N, (cfg0.win 6).flush t = true ∧ i ∈ ((cfg0.win 6).blk t).view.set := by
  have hi0 : (i 0).val < 1000000 := (i 0).isLt
  have hi1 : (i 1).val < 128 := (i 1).isLt
  have hN : cfg0.N = 200 := N_0
  have hlt : (i 0).val / 5000 < cfg0.N := by rw [hN]; omega
  obtain ⟨-, -, -, -, -, -, -, -, -, -, -, -, e60, e61⟩ := index_facts ⟨(i 0).val / 5000, hlt⟩
  have e60' : win0_6.index ⟨(i 0).val / 5000, hlt⟩ (0 : Fin 2) = (i 0).val / 5000 := e60
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    omega

/-- The output array after the run is the gated array of the argument arrays. -/
theorem final (c : Dev nD) : (dats m 0 c).arrAt 6 cfg0.N = G m c :=
  (dats m 0 c).arrAt_eq_of_cover 6 (G m c) (fun t _ => flushed_eq m c t) cover

end Cert.KernelIdeal.GateArray

end
-- ==== Proof.GateRun.lean ====
/-
  The kernel's run, with its result named.

  After the region the host adds the rows of the region's output array into the groups the group indices name: row n is
  added to row idx(n) of a zero array of 50000 rows.  That step is wrapped here in one definition, `scattered`, which is
  never opened: the reference ends with the same step on the same indices, so the two results are equal as soon as the
  arrays being scattered are.  The region's output array is the gated array of the argument arrays, and the host
  operations after the region do not touch the arguments.
-/
import proofs.«150433_j76613626626623_1_alg».proof.Proof.GateArray

set_option maxRecDepth 16384

noncomputable section

namespace Cert.KernelIdeal.GateRun

open Idealize.ShloMosaic Idealize.ShloMosaic.TcCoe Idealize.ShloMosaic.ValueIdx Idealize.SL.Sem Idealize.ShloMosaic.StableHlo
open Cert.KernelIdeal Cert.KernelIdeal.Gen Cert.KernelIdeal.GateArray
open Idealize.ShloMosaic.Pipeline (Dat)

/-- The rows of `u` added into the rows of a zero array that the indices name. -/
def scattered (idx : (⟨S1000000, .i32⟩ : BufTy).Contents (Elt Ideal)) (u : (⟨S1000000x128, .f32⟩ : BufTy).Contents (Elt Ideal)) :
    (⟨S50000x128, .f32⟩ : BufTy).Contents (Elt Ideal) :=
  Host.scatterAdd scatter_S50000x128_S1000000x1_S1000000x128_1_0_0_1
    (broadcastInDim S50000x128 ![] bcast_S_S50000x128 (constant (F := Ideal) S_ .f32 0x00000000#32))
    (broadcastInDim S1000000x1 ![0] bcast_S1000000_S1000000x1_0 idx) u

variable (m : (ℓ : Loc nD τ sig) → Buf (Elt Ideal) ℓ) (ρ : Dev nD → PrngReg)

/-- What the host operations after the region leave in the result buffer: the gated array, scattered by the group
    indices as launched. -/
theorem tail_eq (c : Dev nD) :
    Pipeline.afterTail₀ cfgs (dats m) 0 (V0 m) [hostOps1] c main_v6
      = scattered (m ((c.tc : Thread nD τ).loc main_arg3)) (G m c) := by
  unfold Pipeline.afterTail₀
  show StableHlo.after hostOps1 _ (Proc.devRef .tc main_v6) = _
  after_results
  have hu : Pipeline.withArrays (cfgs 0).spec c (V0 m c) (fun w => (dats m 0 c).arrAt w (cfgs 0).N) (Proc.devRef .tc main_v3)
      = G m c := (Pipeline.withArrays_arr spec0 launch0.win.arr_inj c _ _ 6).trans (final m c)
  have hi : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans
      (V_main_arg3 m c)
  rw [hu, hi]
  rfl

/-- Every weakly fair execution of the kernel's program terminates with the result buffer at the scattered gated array
    and the argument arrays unchanged. -/
theorem run : θ_run defs (onTc (τ := τ) (main (F := Ideal))) ⟨m, fun _ => 0, ρ⟩ fun r => ∀ c : Dev nD,
      r.2.mem ((c.tc : Thread nD τ).loc main_v6) = scattered (m ((c.tc : Thread nD τ).loc main_arg3)) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.GateRun

end
-- ==== Proof.lean ====
/-
  A sigmoid-gated scatter-sum: the kernel against its reference, at the ideal values.

  Both programs compute, for every row n of a million, the score
      s(n) = Σ_h (Σ_k query(n,k) · Wqk(h,k)) · (Σ_k key(n,k) · Wk(h,k)),
  the gate  sigmoid(s(n)) · prior(n),  the gated row  value(n, ·) · gate(n),  and then add every gated row into the row
  of a 50000-row array that the group index of n names.

  The kernel does the first three steps 5000 rows at a time inside its region, on weights transposed beforehand, reading
  the operands of its matrix products in bfloat16 (no change at the ideal values) and taking the sigmoid as one
  operation; the reference does them on the whole arrays and spells the sigmoid as 1 / (1 + exp(-x)).  At the ideal values
  the sigmoid IS that quotient, a matrix product is the plain sum over the contracted axis, and the row blocks tile the
  array, so the array the kernel's region leaves and the array the reference computes are one function of the arguments,
  entry by entry (`Cert.Gate.gated`).  The sums and products are arranged the same way on both sides, so nothing is
  regrouped and finiteness of the inputs is never used.  The final scatter-add is the same operation on the same indices
  on both sides and is carried along unopened.

  The kernel is its own idealization (no operation was rewritten), so that claim is trivial; the three frame claims are
  the generated frame of each program.
-/
import proofs.«150433_j76613626626623_1_alg».proof.Defs
import proofs.«150433_j76613626626623_1_alg».proof.Proof.Gen.Kernel
import proofs.«150433_j76613626626623_1_alg».proof.Proof.Gen.Kernel.Skeleton
import proofs.«150433_j76613626626623_1_alg».proof.Proof.Gen.Kernel.Launch
import proofs.«150433_j76613626626623_1_alg».proof.Proof.Gen.Kernel.Points
import proofs.«150433_j76613626626623_1_alg».proof.Proof.Gen.Kernel.Frame
import proofs.«150433_j76613626626623_1_alg».proof.Proof.Gen.KernelIdeal
import proofs.«150433_j76613626626623_1_alg».proof.Proof.Gen.KernelIdeal.Skeleton
import proofs.«150433_j76613626626623_1_alg».proof.Proof.Gen.KernelIdeal.Launch
import proofs.«150433_j76613626626623_1_alg».proof.Proof.Gen.KernelIdeal.Points
import proofs.«150433_j76613626626623_1_alg».proof.Proof.Gen.KernelIdeal.Frame
import proofs.«150433_j76613626626623_1_alg».proof.Proof.Gen.ReferenceIdeal
import proofs.«150433_j76613626626623_1_alg».proof.Proof.Gen.Pre_finite_inputs
import proofs.«150433_j76613626626623_1_alg».proof.Proof.Gen.ReferenceIdeal.Run
import proofs.«150433_j76613626626623_1_alg».proof.Proof.Gen.ReferenceIdeal.Read
import proofs.«150433_j76613626626623_1_alg».proof.Proof.GateReference
import proofs.«150433_j76613626626623_1_alg».proof.Proof.GateRun
import Idealize.ShloMosaic.Adequacy
import Idealize.ShloMosaic.Init

noncomputable section

namespace Cert.Proof

open Idealize.ShloMosaic Idealize.SL.Sem

/-- The reference's result is the gated array of its arguments, scattered by its group indices: its last operation is
    the kernel program's last operation, applied to the array that `GateRef.gated_eq` identifies. -/
theorem reference_result (x0 x1 x2 : (⟨Cert.ReferenceIdeal.S1000000x128, .f32⟩ : BufTy).Contents (Elt Ideal))
    (x3 : (⟨Cert.ReferenceIdeal.S1000000, .i32⟩ : BufTy).Contents (Elt Ideal))
    (x4 : (⟨Cert.ReferenceIdeal.S1000000, .f32⟩ : BufTy).Contents (Elt Ideal))
    (x5 x6 : (⟨Cert.ReferenceIdeal.S64x128, .f32⟩ : BufTy).Contents (Elt Ideal)) :
    Cert.ReferenceIdeal.Read.val_main_v18 (F := Ideal) x0 x1 x2 x3 x4 x5 x6
      = Cert.KernelIdeal.GateRun.scattered x3 (Cert.Gate.gated x0 x1 x2 x4 x5 x6) := by
  unfold Cert.ReferenceIdeal.Read.val_main_v18
  rw [Cert.ReferenceIdeal.GateRef.gated_eq]
  rfl

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From arguments that agree, both programs end with the scattered gated array of those arguments. -/
theorem algebraic : Cert.algebraic_KernelIdeal_ReferenceIdeal := by
  intro m ρ m' ρ' _ hagree
  refine ⟨fun c => Cert.KernelIdeal.GateRun.scattered (m ((c.tc : Thread Cert.KernelIdeal.nD Cert.KernelIdeal.τ).loc Cert.KernelIdeal.main_arg3))
    (Cert.KernelIdeal.GateArray.G m c), Cert.KernelIdeal.GateRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v18_eq, reference_result, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
